-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x2048x1024 : Shape := ⟨4, ![1, 8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S1x8x2048x1024 : S_.BroadcastsInDim S1x8x2048x1024 (![] : Fin 0 → Fin S1x8x2048x1024.rank)
  reducesTo_S1x8x2048x1024_S_d0_1_2_3 : S1x8x2048x1024.ReducesTo [0, 1, 2, 3] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1x1024 .f32 := Host.absf main_arg4
  let main_cst_6 : FVec F S_ .f32 := constant S_ .f32 0x7F800000#32
  let main_v20 : FVec F S8x1x1024 .f32 := broadcastInDim S8x1x1024 ![] bcast_S_S8x1x1024 main_cst_6
  let main_v21 : IVec S8x1x1024 1 := cmpf .olt main_v19 main_v20
  let main_c_7 : IVec S_ 1 := constantI S_ 1 1#1
  let main_v22 : IVec S_ 1 := (fun x v => Host.reduce IntOp.andi x v reducesTo_S8x1x1024_S_d0_1_2 h_S_) main_v21 main_c_7
  let main_v23 : IVec S_ 1 := andi main_v18 main_v22
  main_v23

def fn {F : FTy → Type} [FloatOps F] (main_arg0 : FVec F S1x8x2048x1024 .f32) (main_arg1 : FVec F S8x1024x4096 .f32) (main_arg2 : FVec F S8x1x4096 .f32) (main_arg3 : FVec F S8x4096x1024 .f32) (main_arg4 : FVec F S8x1x1024 .f32) : IVec S_ 1 :=
  let main_v0 : FVec F S1x8x2048x1024 .f32 := Host.absf main_arg0
  let main_cst : FVec F S_ .f32 := constant S_ .f32 0x7F800000#32
  let main_v1 : FVec F S1x8x2048x1024 .f32 := broadcastInDim S1x8x2048x1024 ![] bcast_S_S1x8x2048x1024 main_cst
  let main_v2 : IVec S1x8x2048x1024 1 := cmpf .olt main_v0 main_v1
  let main_c : IVec S_ 1 := constantI S_ 1 1#1
  let main_v3 : IVec S_ 1 := (fun x v => Host.reduce IntOp.andi x v reducesTo_S1x8x2048x1024_S_d0_1_2_3 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S1x8x2048x1024 : Shape := ⟨4, ![1, 8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x1024 : Shape := ⟨3, ![8, 2048, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S1x8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x1024, .f32⟩
  | .hbm, ⟨6, _⟩ => ⟨S8x2048x1024, .f32⟩
  | .hbm, ⟨7, _⟩ => ⟨S1x8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | _, _ => ⟨S1x8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_21 : BitVec 32 := 0#32
  let v39 : BitVec 1 := Scalar.cmpi .ne v38 c0_i32_21
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S1x8x2048x1024_S8x2048x1024 : S1x8x2048x1024.ShapeCasts S8x2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  shapeCasts_S256x1024_S1x256x1024 : S256x1024.ShapeCasts S1x256x1024
  shapeCasts_S8x2048x1024_S1x8x2048x1024 : S8x2048x1024.ShapeCasts S1x8x2048x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .f32 = 32 ∨ (Rect.block (s := S8x1024x4096) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x2048x1024.size a
  hwx0_5 : ∀ i : grid0.Coords, EltTy.bits .f32 = 32 ∨ (Rect.block (s := S8x2048x1024) S1x256x1024.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x8x2048x1024 : Shape := ⟨4, ![1, 8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x1024 : Shape := ⟨3, ![8, 2048, 1024]⟩
abbrev S8x2048x4096 : Shape := ⟨3, ![8, 2048, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S1x8x2048x1024, .f32⟩
  | .hbm, ⟨1, _⟩ => ⟨S8x1024x4096, .f32⟩
  | .hbm, ⟨2, _⟩ => ⟨S8x1x4096, .f32⟩
  | .hbm, ⟨3, _⟩ => ⟨S8x4096x1024, .f32⟩
  | .hbm, ⟨4, _⟩ => ⟨S8x1x1024, .f32⟩
  | .hbm, ⟨5, _⟩ => ⟨S8x2048x1024, .f32⟩
  | .hbm, ⟨6, _⟩ => ⟨S8x2048x4096, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S1x8x2048x1024, .f32⟩
  | _, _ => ⟨S1x8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S1x8x2048x1024_S8x2048x1024 : S1x8x2048x1024.ShapeCasts S8x2048x1024
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  shapeCasts_S8x2048x1024_S1x8x2048x1024 : S8x2048x1024.ShapeCasts S1x8x2048x1024
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.FfnSpec.lean ====
/-
  One expert's feed-forward block read entry by entry on the extended reals: a first matrix product plus a bias,
  the tanh form of GELU, a second matrix product plus a bias.  Beside it, the second product accumulated quarter by
  quarter along its contracted axis of length 4096, starting from zero, and the fact that the fourth partial sum plus
  the bias is the whole entry: only commutativity and associativity of the addition are used, so nothing has to be finite.
-/
import Idealize.ShloMosaic.PureOps.Ideal
import Idealize.ShloMosaic.PureOps.Ideal.Laws
import Idealize.ShloMosaic.Lib.ValueIdx
import proofs.«181915_j18193481466108_2_alg».proof.Proof.LibSumBlocks

noncomputable section

open scoped BigOperators

namespace Cert.Ffn

open Idealize.ShloMosaic Idealize.ShloMosaic.ValueIdx

/-- The activations [expert, token, model]. -/
abbrev SX : Shape := ⟨3, ![8, 2048, 1024]⟩
/-- The first weights [expert, model, hidden]. -/
abbrev SW1 : Shape := ⟨3, ![8, 1024, 4096]⟩
/-- The first bias [expert, 1, hidden]. -/
abbrev SB1 : Shape := ⟨3, ![8, 1, 4096]⟩
/-- The second weights [expert, hidden, model]. -/
abbrev SW2 : Shape := ⟨3, ![8, 4096, 1024]⟩
/-- The second bias [expert, 1, model]. -/
abbrev SB2 : Shape := ⟨3, ![8, 1, 1024]⟩

/-- The tanh form of GELU: h · (1/2 · (1 + tanh (c · (h + k · (h · (h · h)))))), the four constants kept as the binary
    values both programs spell. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

variable (X : SX.Idx → EReal) (W1 : SW1.Idx → EReal) (B1 : SB1.Idx → EReal) (W2 : SW2.Idx → EReal)
  (B2 : SB2.Idx → EReal)

/-- The hidden pre-activation of expert e, token r, hidden unit k: the row of X against the column of W1, plus the bias. -/
def hid (e : Fin 8) (r : Fin 2048) (k : Fin 4096) : EReal :=
  (∑ d : Fin 1024, X (ix3 e r d) * W1 (ix3 e d k)) + B1 (ix3 e (0 : Fin 1) k)

/-- Hidden unit s of quarter n mod 4 of the hidden axis. -/
def qpos (n : ℕ) (s : Fin 1024) : Fin 4096 :=
  ⟨n % 4 * 1024 + s.val, by have := s.isLt; have := Nat.mod_lt n (by decide : 0 < 4); omega⟩

/-- The contribution of quarter n mod 4 of the hidden axis to the output entry (e, r, q). -/
def part (e : Fin 8) (r : Fin 2048) (q : Fin 1024) (n : ℕ) : EReal :=
  ∑ s : Fin 1024, gelu (hid X W1 B1 e r (qpos n s)) * W2 (ix3 e (qpos n s) q)

/-- The partial sums of the second product, quarter after quarter, from zero. -/
def accTo (e : Fin 8) (r : Fin 2048) (q : Fin 1024) : ℕ → EReal
  | 0 => 0 + part X W1 B1 W2 e r q 0
  | n + 1 => accTo e r q n + part X W1 B1 W2 e r q (n + 1)

/-- The output entry (e, r, q): the activated hidden row against the column of W2, plus the bias. -/
def outAt (e : Fin 8) (r : Fin 2048) (q : Fin 1024) : EReal :=
  (∑ k : Fin 4096, gelu (hid X W1 B1 e r k) * W2 (ix3 e k q)) + B2 (ix3 e (0 : Fin 1) q)

/-- The whole output array. -/
def out : SX.Idx → EReal := fun i =>
  outAt X W1 B1 W2 B2 ⟨(i 0).val, (i 0).isLt⟩ ⟨(i 1).val, (i 1).isLt⟩ ⟨(i 2).val, (i 2).isLt⟩

theorem out_ix3 (e : Fin 8) (r : Fin 2048) (q : Fin 1024) :
    out X W1 B1 W2 B2 (ix3 e r q) = outAt X W1 B1 W2 B2 e r q := rfl

/-- The fourth partial sum plus the bias is the entry: the sum over 4096 hidden units regrouped as four quarters. -/
theorem accTo_three (e : Fin 8) (r : Fin 2048) (q : Fin 1024) :
    accTo X W1 B1 W2 e r q 3 + B2 (ix3 e (0 : Fin 1) q) = outAt X W1 B1 W2 B2 e r q := by
  unfold outAt
  rw [Cert.SumBlocks.sum_blocks 4 1024 4096 rfl, Fin.sum_univ_four]
  simp only [accTo, zero_add]
  rfl

end Cert.Ffn

end
-- ==== Proof.FfnBlocks.lean ====
/-
  Where the blocks the kernel body loads sit in the whole arrays.  The grid has 8 x 8 x 4 points, numbered n = (e * 8 + b) * 4 + f:
  expert e, token block b of 256 rows, quarter f of the hidden axis.  At point n the activation block is rows
  256 b .. 256 b + 255 of expert e; the first weight and bias blocks are hidden columns 1024 f .. 1024 f + 1023; the second
  weight block is hidden rows 1024 f .. 1024 f + 1023; the second bias block is expert e's whole row; the output block sits
  where the activation block does.  The activations the region finds are the argument with its leading unit axis dropped.
-/
import proofs.«181915_j18193481466108_2_alg».proof.Proof.Gen.KernelIdeal.Frame
import proofs.«181915_j18193481466108_2_alg».proof.Proof.FfnSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Ffn.Blocks

open Cert.KernelIdeal Cert.KernelIdeal.Gen

variable {F : FTy → Type} [FloatOps F]
variable (m : (ℓ : Loc nD τ sig) → Buf (Elt F) ℓ)

/-- The expert of grid point n. -/
def expertOf (n : ℕ) : Fin 8 := ⟨n / 32 % 8, Nat.mod_lt _ (by decide)⟩

/-- Row p of the token block of grid point n, as a row of the expert's 2048 tokens. -/
def rowOf (n : ℕ) (p : Fin 256) : Fin 2048 :=
  ⟨n / 4 % 8 * 256 + p.val, by have := p.isLt; have := Nat.mod_lt (n / 4) (by decide : 0 < 8); omega⟩

/-- The printed index maps in closed form, decided over the grid. -/
theorem idx_facts0 : ∀ t : Fin cfg0.N, win0_0.index t (0 : Fin 3) = t.val / 32 % 8
    ∧ win0_0.index t (1 : Fin 3) = t.val / 4 % 8 ∧ win0_0.index t (2 : Fin 3) = 0 :=
  (by decide +kernel : ∀ t : Fin grid0.N, _)
theorem idx_facts1 : ∀ t : Fin cfg0.N, win0_1.index t (0 : Fin 3) = t.val / 32 % 8
    ∧ win0_1.index t (1 : Fin 3) = 0 ∧ win0_1.index t (2 : Fin 3) = t.val % 4 :=
  (by decide +kernel : ∀ t : Fin grid0.N, _)
theorem idx_facts2 : ∀ t : Fin cfg0.N, win0_2.index t (0 : Fin 3) = t.val / 32 % 8
    ∧ win0_2.index t (1 : Fin 3) = 0 ∧ win0_2.index t (2 : Fin 3) = t.val % 4 :=
  (by decide +kernel : ∀ t : Fin grid0.N, _)
theorem idx_facts3 : ∀ t : Fin cfg0.N, win0_3.index t (0 : Fin 3) = t.val / 32 % 8
    ∧ win0_3.index t (1 : Fin 3) = t.val % 4 ∧ win0_3.index t (2 : Fin 3) = 0 :=
  (by decide +kernel : ∀ t : Fin grid0.N, _)
theorem idx_facts4 : ∀ t : Fin cfg0.N, win0_4.index t (0 : Fin 3) = t.val / 32 % 8
    ∧ win0_4.index t (1 : Fin 3) = 0 ∧ win0_4.index t (2 : Fin 3) = 0 :=
  (by decide +kernel : ∀ t : Fin grid0.N, _)
theorem idx_facts5 : ∀ t : Fin cfg0.N, win0_5.index t (0 : Fin 3) = t.val / 32 % 8
    ∧ win0_5.index t (1 : Fin 3) = t.val / 4 % 8 ∧ win0_5.index t (2 : Fin 3) = 0 :=
  (by decide +kernel : ∀ t : Fin grid0.N, _)

/-- The activation block at point t, row p, column d. -/
theorem blk0_apply (c : Dev nD) (t : Fin cfg0.N) (p : Fin 256) (d : Fin 1024) :
    (iblk m c 0 t : Vec F S1x256x1024 .f32) (ix3 (0 : Fin 1) p d)
      = V m c main_v0 (ix3 (expertOf t.val) (rowOf t.val p) d) := by
  obtain ⟨e0, e1, e2⟩ := idx_facts0 t
  unfold iblk
  rw [View.read_apply]
  show V m c main_v0 _ = V m c main_v0 _
  refine congrArg _ ?_
  funext a; apply Fin.ext
  match a with
  | ⟨0, _⟩ => show win0_0.index t (0 : Fin 3) * 1 + 1 * 0 = t.val / 32 % 8; rw [e0]; omega
  | ⟨1, _⟩ => show win0_0.index t (1 : Fin 3) * 256 + 1 * p.val = t.val / 4 % 8 * 256 + p.val; rw [e1]; omega
  | ⟨2, _⟩ => show win0_0.index t (2 : Fin 3) * 1024 + 1 * d.val = d.val; rw [e2]; omega

/-- The first weight block at point t, row d, column s. -/
theorem blk1_apply (c : Dev nD) (t : Fin cfg0.N) (d : Fin 1024) (s : Fin 1024) :
    (iblk m c 1 t : Vec F S1x1024x1024 .f32) (ix3 (0 : Fin 1) d s)
      = V m c main_arg1 (ix3 (expertOf t.val) d (Cert.Ffn.qpos t.val s)) := by
  obtain ⟨e0, e1, e2⟩ := idx_facts1 t
  unfold iblk
  rw [View.read_apply]
  show V m c main_arg1 _ = V m c main_arg1 _
  refine congrArg _ ?_
  funext a; apply Fin.ext
  match a with
  | ⟨0, _⟩ => show win0_1.index t (0 : Fin 3) * 1 + 1 * 0 = t.val / 32 % 8; rw [e0]; omega
  | ⟨1, _⟩ => show win0_1.index t (1 : Fin 3) * 1024 + 1 * d.val = d.val; rw [e1]; omega
  | ⟨2, _⟩ => show win0_1.index t (2 : Fin 3) * 1024 + 1 * s.val = t.val % 4 * 1024 + s.val; rw [e2]; omega

/-- The first bias block at point t, column s. -/
theorem blk2_apply (c : Dev nD) (t : Fin cfg0.N) (s : Fin 1024) :
    (iblk m c 2 t : Vec F S1x1x1024 .f32) (ix3 (0 : Fin 1) (0 : Fin 1) s)
      = V m c main_arg2 (ix3 (expertOf t.val) (0 : Fin 1) (Cert.Ffn.qpos t.val s)) := by
  obtain ⟨e0, e1, e2⟩ := idx_facts2 t
  unfold iblk
  rw [View.read_apply]
  show V m c main_arg2 _ = V m c main_arg2 _
  refine congrArg _ ?_
  funext a; apply Fin.ext
  match a with
  | ⟨0, _⟩ => show win0_2.index t (0 : Fin 3) * 1 + 1 * 0 = t.val / 32 % 8; rw [e0]; omega
  | ⟨1, _⟩ => show win0_2.index t (1 : Fin 3) * 1 + 1 * 0 = 0; rw [e1]
  | ⟨2, _⟩ => show win0_2.index t (2 : Fin 3) * 1024 + 1 * s.val = t.val % 4 * 1024 + s.val; rw [e2]; omega

/-- The second weight block at point t, row s, column q. -/
theorem blk3_apply (c : Dev nD) (t : Fin cfg0.N) (s : Fin 1024) (q : Fin 1024) :
    (iblk m c 3 t : Vec F S1x1024x1024 .f32) (ix3 (0 : Fin 1) s q)
      = V m c main_arg3 (ix3 (expertOf t.val) (Cert.Ffn.qpos t.val s) q) := by
  obtain ⟨e0, e1, e2⟩ := idx_facts3 t
  unfold iblk
  rw [View.read_apply]
  show V m c main_arg3 _ = V m c main_arg3 _
  refine congrArg _ ?_
  funext a; apply Fin.ext
  match a with
  | ⟨0, _⟩ => show win0_3.index t (0 : Fin 3) * 1 + 1 * 0 = t.val / 32 % 8; rw [e0]; omega
  | ⟨1, _⟩ => show win0_3.index t (1 : Fin 3) * 1024 + 1 * s.val = t.val % 4 * 1024 + s.val; rw [e1]; omega
  | ⟨2, _⟩ => show win0_3.index t (2 : Fin 3) * 1024 + 1 * q.val = q.val; rw [e2]; omega

/-- The second bias block at point t, column q. -/
theorem blk4_apply (c : Dev nD) (t : Fin cfg0.N) (q : Fin 1024) :
    (iblk m c 4 t : Vec F S1x1x1024 .f32) (ix3 (0 : Fin 1) (0 : Fin 1) q)
      = V m c main_arg4 (ix3 (expertOf t.val) (0 : Fin 1) q) := by
  obtain ⟨e0, e1, e2⟩ := idx_facts4 t
  unfold iblk
  rw [View.read_apply]
  show V m c main_arg4 _ = V m c main_arg4 _
  refine congrArg _ ?_
  funext a; apply Fin.ext
  match a with
  | ⟨0, _⟩ => show win0_4.index t (0 : Fin 3) * 1 + 1 * 0 = t.val / 32 % 8; rw [e0]; omega
  | ⟨1, _⟩ => show win0_4.index t (1 : Fin 3) * 1 + 1 * 0 = 0; rw [e1]
  | ⟨2, _⟩ => show win0_4.index t (2 : Fin 3) * 1024 + 1 * q.val = q.val; rw [e2]; omega

/-- Where entry (0, p, q) of the output block of point t sits in the output array. -/
theorem out_emb (t : Fin cfg0.N) (p : Fin 256) (q : Fin 1024) :
    ((cfg0.win 5).blk t).view.emb (ix3 (0 : Fin 1) p q) = ix3 (expertOf t.val) (rowOf t.val p) q := by
  obtain ⟨e0, e1, e2⟩ := idx_facts5 t
  funext a; apply Fin.ext
  match a with
  | ⟨0, _⟩ => show win0_5.index t (0 : Fin 3) * 1 + 1 * 0 = t.val / 32 % 8; rw [e0]; omega
  | ⟨1, _⟩ => show win0_5.index t (1 : Fin 3) * 256 + 1 * p.val = t.val / 4 % 8 * 256 + p.val; rw [e1]; omega
  | ⟨2, _⟩ => show win0_5.index t (2 : Fin 3) * 1024 + 1 * q.val = q.val; rw [e2]; omega

/-- The activations as the region finds them: the argument with its leading unit axis dropped. -/
theorem V_main_v0 (c : Dev nD) :
    (V m c main_v0 : S8x2048x1024.Idx → Elt F .f32)
      = shapeCast S8x2048x1024 (m ((c : Thread nD τ).loc main_arg0)) shapeCasts_S1x8x2048x1024_S8x2048x1024 := by
  show StableHlo.after hostOps0 (fun b => m (c, b)) (Proc.devRef .tc main_v0) = _
  after_results
  rfl

end Cert.Ffn.Blocks

end
-- ==== Proof.FfnPieces.lean ====
/-
  What one run of the kernel body leaves behind, case by case, as pure values of what it loaded.  The body keeps a
  [256, 1024] accumulator between grid points.  At the first quarter of the hidden axis it zeroes the accumulator and adds
  this quarter's contribution; at the middle quarters it adds the contribution to what the accumulator held; at the
  last quarter it does the same and stores the accumulator plus the second bias row as the output block.  Each
  buffer is written through one rectangle covering it whole, so what it ends holding is the stored value itself.
-/
import proofs.«181915_j18193481466108_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Ffn.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Between the first and the last quarter the scratch ends at the accumulating step of what it held. -/
theorem scr_B (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : ¬cond0_0 i) (hc1 : ¬cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    sout0_B_0 c i arg3 harg3 arg4 harg4 arg5 harg5 arg6 harg6 arg7 harg7 arg8 harg8 arg9 harg9 hc0 hc1 x0 x1 x2 x3 x4 xs0 = k0_pay1 (k0_pay4 x0 x1 x2 x3 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x256x1024) hz3, View.ld_unit_zero (S := S1x1024x1024) hz3, View.ld_unit_zero (S := S1x1x1024) hz3,
    View.ld_unit_zero (S := S256x1024) hz2]

/-- At the last quarter the scratch ends at the same step; -/
theorem scr_C (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : ¬cond0_0 i) (hc1 : cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    sout0_C_0 c i arg3 harg3 arg4 harg4 arg5 harg5 arg6 harg6 arg7 harg7 arg8 harg8 arg9 harg9 hc0 hc1 x0 x1 x2 x3 x4 xs0 = k0_pay1 (k0_pay4 x0 x1 x2 x3 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg9.read_unread,
    View.ld_unit_zero (S := S1x256x1024) hz3, View.ld_unit_zero (S := S1x1024x1024) hz3, View.ld_unit_zero (S := S1x1x1024) hz3,
    View.ld_unit_zero (S := S256x1024) hz2]

/-- and the output block is that step with the second bias row added to every row. -/
theorem out_C (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : ¬cond0_0 i) (hc1 : cond0_1 i) (x0 : Vec F S1x256x1024 .f32) (x1 : Vec F S1x1024x1024 .f32) (x2 : Vec F S1x1x1024 .f32) (x3 : Vec F S1x1024x1024 .f32) (x4 : Vec F S1x1x1024 .f32) (xs0 : Vec F S256x1024 .f32) :
    out0_C_5 c i arg3 harg3 arg4 harg4 arg5 harg5 arg6 harg6 arg7 harg7 arg8 harg8 arg9 harg9 hc0 hc1 x0 x1 x2 x3 x4 xs0 = k0_pay2 (k0_pay1 (k0_pay4 x0 x1 x2 x3 xs0)) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3, View.readCov_unit_zero (S := S256x1024) _ hz2]
  simp only [View.readAt_eq_ld, harg3.read_unread, harg4.read_unread, harg5.read_unread, harg6.read_unread, harg7.read_unread, harg9.read_unread,
    View.ld_unit_zero (S := S1x256x1024) hz3, View.ld_unit_zero (S := S1x1024x1024) hz3, View.ld_unit_zero (S := S1x1x1024) hz3,
    View.ld_unit_zero (S := S256x1024) hz2]

/-- At the first quarter the scratch is first zeroed, so it ends at the step taken from the zero array. -/
theorem scr_A (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x256x1024 .f32) (harg8 : arg8.IsWhole) (arg9 : Memref sig .tc .vmem S256x1024 .f32) (harg9 : arg9.IsWhole) (hc0 : cond0_0 i) (hc1 : ¬cond0_1 i) (x0 : Vec F S1x256x1024 .f32) (x1 : Vec F S1x1024x1024 .f32) (x2 : Vec F S1x1x1024 .f32) (x3 : Vec F S1x1024x1024 .f32) (x4 : Vec F S1x1x1024 .f32) :
    sout0_A_0 c i arg3 harg3 arg4 harg4 arg5 harg5 arg6 harg6 arg7 harg7 arg8 harg8 arg9 harg9 hc0 hc1 x0 x1 x2 x3 x4 = k0_pay1 (k0_pay4 x0 x1 x2 x3 (k0_pay3 (F := F))) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S256x1024) hz2, View.readCov_unit_zero (S := S256x1024) _ hz2]
  simp only [View.readAt_eq_ld, harg3.read_unread, harg4.read_unread, harg5.read_unread, harg6.read_unread, harg7.read_unread, harg9.read_unread,
    View.ld_unit_zero (S := S1x256x1024) hz3, View.ld_unit_zero (S := S1x1024x1024) hz3, View.ld_unit_zero (S := S1x1x1024) hz3,
    View.ld_unit_zero (S := S256x1024) hz2]

end Cert.Ffn.Pieces

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.FfnBody.lean ====
/-
  The four values one step of the feed-forward kernel's body stores, read entry by entry on the extended reals.

  The body keeps a [256, 1024] running sum.  Its four stored values are: the zero array that starts the running sum;
  the running sum recast to its own shape, which is itself; the running sum plus the second bias row repeated over the
  256 rows, recast to [1, 256, 1024]; and the accumulating step — the running sum plus, at (p, q), the sum over the 1024
  hidden units s of this step of  gelu (Σ_d x (p, d) · w1 (d, s) + b1 s) · w2 (s, q),  where gelu is the tanh form
  h · (1/2 · (1 + tanh (c · (h + k · (h · (h · h)))))).  On the extended reals a narrowing of the number format is the
  identity and a matrix product accumulated onto the zero array is the plain sum of products, so each stored value is
  read through its elementwise definition; no algebra is used beyond that reading.
-/
import proofs.«181915_j18193481466108_2_alg».proof.Proof.Gen.KernelIdeal.Skeleton
import proofs.«181915_j18193481466108_2_alg».proof.Proof.FfnSpec
import proofs.«181915_j18193481466108_2_alg».proof.Proof.LibPlainMatmul
import Idealize.ShloMosaic.Lib.ValueLayout
import Idealize.ShloMosaic.Lib.Pipeline.Value
import Idealize.ShloMosaic.Lib.ValueIdx

noncomputable section

open scoped BigOperators

namespace Cert.Ffn.Body

open Idealize.ShloMosaic Idealize.ShloMosaic.ValueIdx Cert.KernelIdeal Cert.KernelIdeal.Gen

variable [Cert.KernelIdeal.Facts]

/-- The array that starts the running sum is zero everywhere. -/
theorem zero_apply (p : Fin 256) (q : Fin 1024) : k0_pay3 (F := Ideal) (ix2 p q) = 0 := by
  unfold k0_pay3
  rw [shapeCast_self]
  exact Ideal.ofBits_zero_f32

/-- The running sum recast to its own shape is itself. -/
theorem keep_apply (v33 : FVec Ideal S256x1024 .f32) (p : Fin 256) (q : Fin 1024) :
    k0_pay1 (F := Ideal) v33 (ix2 p q) = v33 (ix2 p q) := by
  unfold k0_pay1
  rw [shapeCast_self]

/-- The running sum plus the bias row, recast to [1, 256, 1024]: at (0, p, q) the sum's entry plus the row's entry q. -/
theorem bias_apply (v40 : Vec Ideal S256x1024 .f32) (v41 : Vec Ideal S1x1x1024 .f32) (p : Fin 256) (q : Fin 1024) :
    k0_pay2 (F := Ideal) v40 v41 (ix3 (0 : Fin 1) p q) = v40 (ix2 p q) + v41 (ix3 (0 : Fin 1) (0 : Fin 1) q) := by
  unfold k0_pay2
  refine (shapeCast_ab_1ab_apply _ _ (0 : Fin 1) p q).trans ?_
  refine (addf_apply _ _ _).trans ?_
  refine congrArg (fun t => v40 (ix2 p q) + t) ?_
  refine (broadcastTo_1b_ab_apply _ _ p q).trans ?_
  exact shapeCast_1ab_ab_apply _ _ (0 : Fin 1) q

/-- The tanh form of GELU, spelled with elementwise array operations, is at each entry the scalar function of that
    entry: every operation in it acts entry by entry and the four constants are the same binary values. -/
theorem gelu_apply (H : FVec Ideal S256x1024 .f32) (i : S256x1024.Idx) :
    mulf H
      (mulf (broadcast S256x1024 (FloatOps.ofBits (F := Ideal) .f32 0x3F000000#32))
        (addf (broadcast S256x1024 (FloatOps.ofBits (F := Ideal) .f32 0x3F800000#32))
          (tanh
            (mulf (broadcast S256x1024 (FloatOps.ofBits (F := Ideal) .f32 0x3F4C422A#32))
              (addf H
                (mulf (broadcast S256x1024 (FloatOps.ofBits (F := Ideal) .f32 0x3D372713#32))
                  (mulf H (mulf H H)))))))) i
      = Cert.Ffn.gelu (H i) := rfl

/-- The hidden pre-activation of one step: the [1, 256, 1024] activations and the [1, 1024, 1024] first weights, their
    unit axis dropped, multiplied onto the zero array, plus the bias row repeated over the 256 rows.  At (p, s) this is
    the row p of the activations against the column s of the weights, plus the bias entry s. -/
theorem pre_apply (v3 : FVec Ideal S1x256x1024 .f32) (v6 : FVec Ideal S1x1024x1024 .f32)
    (v10 : FVec Ideal S1x1x1024 .f32) (p : Fin 256) (s : Fin 1024) :
    addf (F := Ideal)
        (matmul (F := Ideal) dot_S256x1024_S1024x1024_S256x1024_1_0_0_1_n_n none
          (truncf .bf16 (shapeCast S256x1024 v3 shapeCasts_S1x256x1024_S256x1024) bitsLt_bf16_f32)
          (truncf .bf16 (shapeCast S1024x1024 v6 shapeCasts_S1x1024x1024_S1024x1024) bitsLt_bf16_f32)
          (constant S256x1024 .f32 0x00000000#32))
        (broadcastTo S256x1024 (shapeCast S1x1024 v10 shapeCasts_S1x1x1024_S1x1024) broadcasts_S1x1024_S256x1024)
        (ix2 p s)
      = (∑ d : Fin 1024, v3 (ix3 (0 : Fin 1) p d) * v6 (ix3 (0 : Fin 1) d s))
          + v10 (ix3 (0 : Fin 1) (0 : Fin 1) s) := by
  refine (addf_apply _ _ _).trans ?_
  refine congrArg₂ (· + ·) ?_ ?_
  · refine (Cert.PlainMatmul.zero_acc_apply (a := 256) (n := 1024) (b := 1024)
      dot_S256x1024_S1024x1024_S256x1024_1_0_0_1_n_n_wf none _ _ p s).trans ?_
    refine Finset.sum_congr rfl fun d _ => ?_
    refine congrArg₂ (· * ·) ?_ ?_
    · refine (truncf_apply (φ := .f32) (ψ := .bf16) _ _ _).trans ?_
      exact shapeCast_1ab_ab_apply _ _ p d
    · refine (truncf_apply (φ := .f32) (ψ := .bf16) _ _ _).trans ?_
      exact shapeCast_1ab_ab_apply _ _ d s
  · refine (broadcastTo_1b_ab_apply _ _ p s).trans ?_
    exact shapeCast_1ab_ab_apply _ _ (0 : Fin 1) s

/-- The accumulating step: at (p, q) the running sum's entry plus the sum, over the 1024 hidden units s of this step,
    of the activated pre-activation (p, s) times the second weights' entry (s, q). -/
theorem step_apply (v3 : Vec Ideal S1x256x1024 .f32) (v6 : Vec Ideal S1x1024x1024 .f32) (v10 : Vec Ideal S1x1x1024 .f32)
    (v28 : Vec Ideal S1x1024x1024 .f32) (v31 : Vec Ideal S256x1024 .f32) (p : Fin 256) (q : Fin 1024) :
    k0_pay4 (F := Ideal) v3 v6 v10 v28 v31 (ix2 p q)
      = v31 (ix2 p q) + ∑ s : Fin 1024, Cert.Ffn.gelu ((∑ d : Fin 1024, v3 (ix3 (0 : Fin 1) p d) * v6 (ix3 (0 : Fin 1) d s)) + v10 (ix3 (0 : Fin 1) (0 : Fin 1) s)) * v28 (ix3 (0 : Fin 1) s q) := by
  unfold k0_pay4
  refine (addf_apply _ _ _).trans ?_
  refine congrArg (fun t => v31 (ix2 p q) + t) ?_
  refine (Cert.PlainMatmul.zero_acc_apply (a := 256) (n := 1024) (b := 1024)
    dot_S256x1024_S1024x1024_S256x1024_1_0_0_1_n_n_wf none _ _ p q).trans ?_
  refine Finset.sum_congr rfl fun s _ => ?_
  refine congrArg₂ (· * ·) ?_ ?_
  · refine (truncf_apply (φ := .f32) (ψ := .bf16) _ _ _).trans ?_
    refine (gelu_apply _ (ix2 p s)).trans ?_
    exact congrArg Cert.Ffn.gelu (pre_apply v3 v6 v10 p s)
  · refine (truncf_apply (φ := .f32) (ψ := .bf16) _ _ _).trans ?_
    exact shapeCast_1ab_ab_apply _ _ s q

end Cert.Ffn.Body

end
-- ==== Proof.FfnAccum.lean ====
/-
  The kernel's output array is the feed-forward block of the arrays the region finds.  Walking the grid in order, the
  accumulator after point n holds, at row p and column q, the partial sum over the quarters 0 .. n mod 4 of the hidden
  axis of the entry (expert of n, row 256 b + p, q): a first quarter starts from zero, every other quarter adds its
  contribution to what the point before left (the expert and the token block do not change inside a run of four
  points).  At a last quarter the block written back is that sum plus the second bias, which is the whole entry; the
  64 blocks written back tile the output array.  After the region the program only adds a leading unit axis.
-/
import proofs.«181915_j18193481466108_2_alg».proof.Proof.FfnBlocks
import proofs.«181915_j18193481466108_2_alg».proof.Proof.FfnPieces
import proofs.«181915_j18193481466108_2_alg».proof.Proof.FfnBody

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Ffn.Accum

open Cert.KernelIdeal Cert.KernelIdeal.Gen Cert.Ffn Cert.Ffn.Blocks

variable (m : (ℓ : Loc nD τ sig) → Buf (Elt Ideal) ℓ) (ρ : Dev nD → PrngReg)

/-- The five arrays as the region finds them, as arrays of extended reals. -/
def aX (c : Dev nD) : SX.Idx → EReal := V m c main_v0
def aW1 (c : Dev nD) : SW1.Idx → EReal := V m c main_arg1
def aB1 (c : Dev nD) : SB1.Idx → EReal := V m c main_arg2
def aW2 (c : Dev nD) : SW2.Idx → EReal := V m c main_arg3
def aB2 (c : Dev nD) : SB2.Idx → EReal := V m c main_arg4

/-- A quarter's contribution depends on the point only through its quarter. -/
theorem part_mod (X : SX.Idx → EReal) (W1 : SW1.Idx → EReal) (B1 : SB1.Idx → EReal) (W2 : SW2.Idx → EReal)
    (e : Fin 8) (r : Fin 2048) (q : Fin 1024) (n : ℕ) :
    part X W1 B1 W2 e r q n = part X W1 B1 W2 e r q (n % 4) := by
  have hq : ∀ s : Fin 1024, qpos n s = qpos (n % 4) s := fun s => Fin.ext (by
    show n % 4 * 1024 + s.val = n % 4 % 4 * 1024 + s.val
    rw [Nat.mod_mod])
  unfold part
  exact Finset.sum_congr rfl fun s _ => by rw [hq s]

/-- One accumulating step on blocks that sit, in arrays X, W1, B1, W2, at expert e, token row r and the quarter of n:
    the accumulator's entry plus that quarter's contribution to the entry (e, r, q). -/
theorem step_of (X : SX.Idx → EReal) (W1 : SW1.Idx → EReal) (B1 : SB1.Idx → EReal) (W2 : SW2.Idx → EReal)
    (e : Fin 8) (r : Fin 2048) (n : ℕ)
    (x0 : Vec Ideal S1x256x1024 .f32) (x1 : Vec Ideal S1x1024x1024 .f32) (x2 : Vec Ideal S1x1x1024 .f32)
    (x3 : Vec Ideal S1x1024x1024 .f32) (xs : Vec Ideal S256x1024 .f32) (p : Fin 256) (q : Fin 1024)
    (h0 : ∀ d : Fin 1024, x0 (ix3 (0 : Fin 1) p d) = X (ix3 e r d))
    (h1 : ∀ (d s : Fin 1024), x1 (ix3 (0 : Fin 1) d s) = W1 (ix3 e d (qpos n s)))
    (h2 : ∀ s : Fin 1024, x2 (ix3 (0 : Fin 1) (0 : Fin 1) s) = B1 (ix3 e (0 : Fin 1) (qpos n s)))
    (h3 : ∀ s : Fin 1024, x3 (ix3 (0 : Fin 1) s q) = W2 (ix3 e (qpos n s) q)) :
    k0_pay1 (k0_pay4 x0 x1 x2 x3 xs) (ix2 p q) = xs (ix2 p q) + part X W1 B1 W2 e r q n := by
  refine (Body.keep_apply (k0_pay4 x0 x1 x2 x3 xs) p q).trans ((Body.step_apply x0 x1 x2 x3 xs p q).trans ?_)
  refine congrArg (fun z => xs (ix2 p q) + z) ?_
  unfold part hid
  refine Finset.sum_congr rfl fun s _ => ?_
  rw [h2 s, h3 s]
  have e1 : (∑ d : Fin 1024, x0 (ix3 (0 : Fin 1) p d) * x1 (ix3 (0 : Fin 1) d s))
      = ∑ d : Fin 1024, X (ix3 e r d) * W1 (ix3 e d (qpos n s)) :=
    Finset.sum_congr rfl fun d _ => by rw [h0 d, h1 d s]
  rw [e1]

/-- One accumulating step at point t from accumulator contents xs. -/
theorem step_at (c : Dev nD) (t : Fin cfg0.N) (xs : Vec Ideal S256x1024 .f32) (p : Fin 256) (q : Fin 1024) :
    k0_pay1 (k0_pay4 (iblk m c 0 t) (iblk m c 1 t) (iblk m c 2 t) (iblk m c 3 t) xs) (ix2 p q)
      = xs (ix2 p q) + part (aX m c) (aW1 m c) (aB1 m c) (aW2 m c) (expertOf t.val) (rowOf t.val p) q t.val :=
  step_of (aX m c) (aW1 m c) (aB1 m c) (aW2 m c) (expertOf t.val) (rowOf t.val p) t.val (iblk m c 0 t) (iblk m c 1 t) (iblk m c 2 t) (iblk m c 3 t) xs p q
    (fun d => blk0_apply m c t p d) (fun d s => blk1_apply m c t d s) (fun s => blk2_apply m c t s)
    (fun s => blk3_apply m c t s q)

/-- The accumulator after a first-quarter point: one step from the zero array. -/
theorem scr_at_A (c : Dev nD) (t : Fin cfg0.N) (h0 : t.val % 4 = 0) (h1 : ¬t.val % 4 = 3) :
    (outsAt0 m c t.val t.isLt).2 = k0_pay1 (k0_pay4 (iblk m c 0 t) (iblk m c 1 t) (iblk m c 2 t) (iblk m c 3 t) (k0_pay3 (F := Ideal))) := by
  have key := Pieces.scr_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  rw [outsAt0_A m c t h0 h1]
  dsimp only
  exact key

/-- The accumulator after a middle-quarter point: one step from what the point before left. -/
theorem scr_at_B (c : Dev nD) (t : Fin cfg0.N) (h0 : ¬t.val % 4 = 0) (h1 : ¬t.val % 4 = 3) :
    (outsAt0 m c t.val t.isLt).2
      = k0_pay1 (k0_pay4 (iblk m c 0 t) (iblk m c 1 t) (iblk m c 2 t) (iblk m c 3 t) (outsAt0 m c (t.val - 1) (Nat.lt_of_le_of_lt (Nat.sub_le _ _) t.isLt)).2) := by
  have key := Pieces.scr_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2
  rw [outsAt0_B m c t h0 h1]
  dsimp only
  exact key

/-- The accumulator after a last-quarter point: the same. -/
theorem scr_at_C (c : Dev nD) (t : Fin cfg0.N) (h0 : ¬t.val % 4 = 0) (h1 : t.val % 4 = 3) :
    (outsAt0 m c t.val t.isLt).2
      = k0_pay1 (k0_pay4 (iblk m c 0 t) (iblk m c 1 t) (iblk m c 2 t) (iblk m c 3 t) (outsAt0 m c (t.val - 1) (Nat.lt_of_le_of_lt (Nat.sub_le _ _) t.isLt)).2) := by
  have key := Pieces.scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_C m c t h0 h1]
  dsimp only
  exact key

/-- The output block after a last-quarter point: that accumulator plus the second bias row. -/
theorem out_at_C (c : Dev nD) (t : Fin cfg0.N) (h0 : ¬t.val % 4 = 0) (h1 : t.val % 4 = 3) :
    (outsAt0 m c t.val t.isLt).1
      = k0_pay2 (k0_pay1 (k0_pay4 (iblk m c 0 t) (iblk m c 1 t) (iblk m c 2 t) (iblk m c 3 t) (outsAt0 m c (t.val - 1) (Nat.lt_of_le_of_lt (Nat.sub_le _ _) t.isLt)).2)) (iblk m c 4 t) := by
  have key := Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [outsAt0_C m c t h0 h1]
  dsimp only
  exact key

/-- THE ACCUMULATOR after point n: the partial sum up to that point's quarter. -/
theorem scratch_eq (c : Dev nD) (n : ℕ) : ∀ (h : n < cfg0.N) (p : Fin 256) (q : Fin 1024),
    (outsAt0 m c n h).2 (ix2 p q) = accTo (aX m c) (aW1 m c) (aB1 m c) (aW2 m c) (expertOf n) (rowOf n p) q (n % 4) := by
  have hN : cfg0.N = 256 := N_0
  have caseA : ∀ (n : ℕ) (h : n < cfg0.N) (h0 : n % 4 = 0) (p : Fin 256) (q : Fin 1024),
      (outsAt0 m c n h).2 (ix2 p q) = accTo (aX m c) (aW1 m c) (aB1 m c) (aW2 m c) (expertOf n) (rowOf n p) q (n % 4) := by
    intro n h h0 p q
    have h1 : ¬n % 4 = 3 := by omega
    refine (congrFun (scr_at_A m c ⟨n, h⟩ h0 h1) (ix2 p q)).trans ?_
    refine (step_at m c ⟨n, h⟩ (k0_pay3 (F := Ideal)) p q).trans ?_
    rw [Body.zero_apply p q, part_mod, h0]
    rfl
  induction n with
  | zero => exact fun h p q => caseA 0 h rfl p q
  | succ k ih =>
    intro h p q
    by_cases h0 : (k + 1) % 4 = 0
    · exact caseA (k + 1) h h0 p q
    · have hk : (k + 1) % 4 = k % 4 + 1 := by omega
      have he : expertOf k = expertOf (k + 1) := Fin.ext (by show k / 32 % 8 = (k + 1) / 32 % 8; omega)
      have hr : rowOf k p = rowOf (k + 1) p :=
        Fin.ext (by show k / 4 % 8 * 256 + p.val = (k + 1) / 4 % 8 * 256 + p.val; omega)
      have hstep : (outsAt0 m c (k + 1) h).2
          = k0_pay1 (k0_pay4 (iblk m c 0 ⟨k + 1, h⟩) (iblk m c 1 ⟨k + 1, h⟩) (iblk m c 2 ⟨k + 1, h⟩) (iblk m c 3 ⟨k + 1, h⟩) (outsAt0 m c k (by omega)).2) := by
        by_cases h1 : (k + 1) % 4 = 3
        · exact scr_at_C m c ⟨k + 1, h⟩ h0 h1
        · exact scr_at_B m c ⟨k + 1, h⟩ h0 h1
      refine (congrFun hstep (ix2 p q)).trans ?_
      refine (step_at m c ⟨k + 1, h⟩ _ p q).trans ?_
      rw [ih (by omega) p q, he, hr, hk]
      show accTo (aX m c) (aW1 m c) (aB1 m c) (aW2 m c) (expertOf (k + 1)) (rowOf (k + 1) p) q (k % 4)
          + part (aX m c) (aW1 m c) (aB1 m c) (aW2 m c) (expertOf (k + 1)) (rowOf (k + 1) p) q (k + 1)
        = accTo (aX m c) (aW1 m c) (aB1 m c) (aW2 m c) (expertOf (k + 1)) (rowOf (k + 1) p) q (k % 4)
          + part (aX m c) (aW1 m c) (aB1 m c) (aW2 m c) (expertOf (k + 1)) (rowOf (k + 1) p) q (k % 4 + 1)
      rw [part_mod _ _ _ _ _ _ _ (k + 1), hk]

/-- THE BLOCK WRITTEN BACK at a last quarter: the whole entry. -/
theorem block_eq (c : Dev nD) (n : ℕ) (h : n < cfg0.N) (h3 : n % 4 = 3) (p : Fin 256) (q : Fin 1024) :
    (outsAt0 m c n h).1 (ix3 (0 : Fin 1) p q) = outAt (aX m c) (aW1 m c) (aB1 m c) (aW2 m c) (aB2 m c) (expertOf n) (rowOf n p) q := by
  have hN : cfg0.N = 256 := N_0
  obtain ⟨k, rfl⟩ : ∃ k, n = k + 1 := ⟨n - 1, by omega⟩
  have h0 : ¬(k + 1) % 4 = 0 := by omega
  have hk : k % 4 = 2 := by omega
  have he : expertOf k = expertOf (k + 1) := Fin.ext (by show k / 32 % 8 = (k + 1) / 32 % 8; omega)
  have hr : rowOf k p = rowOf (k + 1) p :=
    Fin.ext (by show k / 4 % 8 * 256 + p.val = (k + 1) / 4 % 8 * 256 + p.val; omega)
  have hout : (outsAt0 m c (k + 1) h).1
      = k0_pay2 (k0_pay1 (k0_pay4 (iblk m c 0 ⟨k + 1, h⟩) (iblk m c 1 ⟨k + 1, h⟩) (iblk m c 2 ⟨k + 1, h⟩) (iblk m c 3 ⟨k + 1, h⟩) (outsAt0 m c k (by omega)).2)) (iblk m c 4 ⟨k + 1, h⟩) :=
    out_at_C m c ⟨k + 1, h⟩ h0 h3
  refine (congrFun hout (ix3 (0 : Fin 1) p q)).trans ?_
  refine (Body.bias_apply _ (iblk m c 4 ⟨k + 1, h⟩) p q).trans ?_
  refine Eq.trans ?_ (accTo_three (aX m c) (aW1 m c) (aB1 m c) (aW2 m c) (aB2 m c) (expertOf (k + 1)) (rowOf (k + 1) p) q)
  refine congrArg₂ (· + ·) ?_ (blk4_apply m c ⟨k + 1, h⟩ q)
  refine (step_at m c ⟨k + 1, h⟩ _ p q).trans ?_
  rw [scratch_eq m c k (by omega) p q, he, hr, hk]
  show accTo (aX m c) (aW1 m c) (aB1 m c) (aW2 m c) (expertOf (k + 1)) (rowOf (k + 1) p) q 2
      + part (aX m c) (aW1 m c) (aB1 m c) (aW2 m c) (expertOf (k + 1)) (rowOf (k + 1) p) q (k + 1)
    = accTo (aX m c) (aW1 m c) (aB1 m c) (aW2 m c) (expertOf (k + 1)) (rowOf (k + 1) p) q 2
      + part (aX m c) (aW1 m c) (aB1 m c) (aW2 m c) (expertOf (k + 1)) (rowOf (k + 1) p) q 3
  rw [part_mod _ _ _ _ _ _ _ (k + 1), h3]

/-- WHAT A LAST-QUARTER POINT WRITES BACK is its block of the feed-forward array. -/
theorem flushed_eq (c : Dev nD) (t : Fin cfg0.N) (hf : (cfg0.win 5).flush t = true) :
    (dats m 0 c).flushed 5 t = ((cfg0.win 5).blk t).view.read (Elt Ideal) (out (aX m c) (aW1 m c) (aB1 m c) (aW2 m c) (aB2 m c)) := by
  have h3 : t.val % 4 = 3 := (flush0_5 t).mp hf
  show (cfg0.win 5).cut (grid0.coords t) ((dats m 0 c).after 5 t) = _
  rw [after0_5]
  funext j
  obtain ⟨u, p, q, rfl⟩ : ∃ (u : Fin 1) (p : Fin 256) (q : Fin 1024), j = ix3 u p q := ⟨j 0, j 1, j 2, eq_ix3 j⟩
  obtain rfl : u = 0 := Subsingleton.elim _ _
  rw [View.read_apply, out_emb t p q, out_ix3]
  exact block_eq m c t.val t.isLt h3 p q

/-- Every entry of the output array is in the block of some last-quarter point. -/
theorem cover (i : S8x2048x1024.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  have hN : cfg0.N = 256 := N_0
  have hn : (i 0).val * 32 + (i 1).val / 256 * 4 + 3 < cfg0.N := by omega
  obtain ⟨e0, e1, e2⟩ := idx_facts5 ⟨(i 0).val * 32 + (i 1).val / 256 * 4 + 3, hn⟩
  refine ⟨⟨(i 0).val * 32 + (i 1).val / 256 * 4 + 3, hn⟩, (flush0_5 _).mpr (by
    show ((i 0).val * 32 + (i 1).val / 256 * 4 + 3) % 4 = 3; omega), ?_⟩
  show i ∈ ((View.whole main_v1).slice (win0_5.rect ⟨(i 0).val * 32 + (i 1).val / 256 * 4 + 3, hn⟩)).set
  rw [View.set_slice_whole, Rect.mem_set_unit]
  intro a
  match a with
  | ⟨0, _⟩ =>
    show win0_5.index ⟨(i 0).val * 32 + (i 1).val / 256 * 4 + 3, hn⟩ (0 : Fin 3) * 1 ≤ (i 0).val
      ∧ (i 0).val < win0_5.index ⟨(i 0).val * 32 + (i 1).val / 256 * 4 + 3, hn⟩ (0 : Fin 3) * 1 + 1
    rw [e0]
    show ((i 0).val * 32 + (i 1).val / 256 * 4 + 3) / 32 % 8 * 1 ≤ (i 0).val
      ∧ (i 0).val < ((i 0).val * 32 + (i 1).val / 256 * 4 + 3) / 32 % 8 * 1 + 1
    omega
  | ⟨1, _⟩ =>
    show win0_5.index ⟨(i 0).val * 32 + (i 1).val / 256 * 4 + 3, hn⟩ (1 : Fin 3) * 256 ≤ (i 1).val
      ∧ (i 1).val < win0_5.index ⟨(i 0).val * 32 + (i 1).val / 256 * 4 + 3, hn⟩ (1 : Fin 3) * 256 + 256
    rw [e1]
    show ((i 0).val * 32 + (i 1).val / 256 * 4 + 3) / 4 % 8 * 256 ≤ (i 1).val
      ∧ (i 1).val < ((i 0).val * 32 + (i 1).val / 256 * 4 + 3) / 4 % 8 * 256 + 256
    omega
  | ⟨2, _⟩ =>
    show win0_5.index ⟨(i 0).val * 32 + (i 1).val / 256 * 4 + 3, hn⟩ (2 : Fin 3) * 1024 ≤ (i 2).val
      ∧ (i 2).val < win0_5.index ⟨(i 0).val * 32 + (i 1).val / 256 * 4 + 3, hn⟩ (2 : Fin 3) * 1024 + 1024
    rw [e2]
    omega

/-- THE OUTPUT ARRAY after the region. -/
theorem final (c : Dev nD) : (dats m 0 c).arrAt 5 cfg0.N = out (aX m c) (aW1 m c) (aB1 m c) (aW2 m c) (aB2 m c) :=
  (dats m 0 c).arrAt_eq_of_cover 5 (out (aX m c) (aW1 m c) (aB1 m c) (aW2 m c) (aB2 m c)) (flushed_eq m c) cover

end Cert.Ffn.Accum

end
-- ==== Proof.FfnRun.lean ====
/-
  The whole kernel program run: its result is the feed-forward array of the five argument arrays, the activations
  first freed of their leading unit axis and the array given that axis back at the end; the arguments are unchanged.
-/
import proofs.«181915_j18193481466108_2_alg».proof.Proof.FfnAccum

set_option maxRecDepth 16384

noncomputable section

open Idealize.ShloMosaic Idealize.ShloMosaic.TcCoe Idealize.SL.Sem Idealize.ShloMosaic.ValueIdx
open Idealize.ShloMosaic.Pipeline (Dat)

namespace Cert.Ffn.Run

open Cert.KernelIdeal Cert.KernelIdeal.Gen Cert.Ffn Cert.Ffn.Blocks Cert.Ffn.Accum

variable (m : (ℓ : Loc nD τ sig) → Buf (Elt Ideal) ℓ) (ρ : Dev nD → PrngReg)

/-- The program's result as one function of the five argument arrays. -/
def result (x0 : S1x8x2048x1024.Idx → EReal) (x1 : SW1.Idx → EReal) (x2 : SB1.Idx → EReal) (x3 : SW2.Idx → EReal)
    (x4 : SB2.Idx → EReal) : S1x8x2048x1024.Idx → EReal :=
  shapeCast S1x8x2048x1024
    (out (shapeCast S8x2048x1024 x0 shapeCasts_S1x8x2048x1024_S8x2048x1024) x1 x2 x3 x4)
    shapeCasts_S8x2048x1024_S1x8x2048x1024

/-- The arrays the region finds, in terms of the arguments. -/
theorem aX_eq (c : Dev nD) :
    aX m c = shapeCast S8x2048x1024 (m ((c : Thread nD τ).loc main_arg0)) shapeCasts_S1x8x2048x1024_S8x2048x1024 :=
  V_main_v0 m c
theorem aW1_eq (c : Dev nD) : aW1 m c = (m ((c : Thread nD τ).loc main_arg1)) := V_main_arg1 m c
theorem aB1_eq (c : Dev nD) : aB1 m c = (m ((c : Thread nD τ).loc main_arg2)) := V_main_arg2 m c
theorem aW2_eq (c : Dev nD) : aW2 m c = (m ((c : Thread nD τ).loc main_arg3)) := V_main_arg3 m c
theorem aB2_eq (c : Dev nD) : aB2 m c = (m ((c : Thread nD τ).loc main_arg4)) := V_main_arg4 m c

/-- After the region the output array is recast with a leading unit axis: the result. -/
theorem tail_eq (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = out (aX m c) (aW1 m c) (aB1 m c) (aW2 m c) (aB2 m c) from
    (Pipeline.withArrays_arr spec0 launch0.win.arr_inj c _ _ 5).trans (final m c)]
  rw [aX_eq, aW1_eq, aB1_eq, aW2_eq, aB2_eq]
  rfl

/-- THE RUN: every weakly fair execution ends with the result array at the feed-forward block of the arguments and the
    arguments as launched. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Ffn.Run

end
-- ==== Proof.FfnRef.lean ====
/-
  The reference computation of one expert's feed-forward block, read entry by entry, is the specification's array.
  The reference forms x·w1 + b1, applies the tanh form of GELU pointwise, and forms (·)·w2 + b2.  At the entry
  (e, r, q) the last addition is the sum over the 4096 hidden units k of the activated hidden entry (e, r, k) times
  w2 (e, k, q), plus b2 (e, 0, q); the activated hidden entry is the tanh-GELU of the sum over the 1024 model
  coordinates d of x (e, r, d) · w1 (e, d, k), plus b1 (e, 0, k).  The only difference between the two texts is the
  cube inside GELU, (h·h)·h on one side and h·(h·h) on the other: commutativity of the product of extended reals.
  Nothing has to be finite.
-/
import proofs.«181915_j18193481466108_2_alg».proof.Proof.Gen.ReferenceIdeal.Read
import proofs.«181915_j18193481466108_2_alg».proof.Proof.FfnSpec

noncomputable section

open scoped BigOperators

namespace Cert.Ffn.Ref

open Idealize.ShloMosaic Idealize.ShloMosaic.ValueIdx Cert.ReferenceIdeal Cert.ReferenceIdeal.Read

/-! ### The index maps of the two products and of the two bias broadcasts, by coordinates -/

/-- Left operand of the first product at entry (e, r, k), term d: the entry (e, r, d). -/
theorem lidx1 (e : Fin 8) (r : Fin 2048) (k : Fin 4096) (d : Fin 1024) :
    lidx_main_v1 (ix3 e r k) d = ix3 e r d :=
  funext fun a => Fin.ext (by match a with | ⟨0, _⟩ => rfl | ⟨1, _⟩ => rfl | ⟨2, _⟩ => rfl)

/-- Right operand of the first product at entry (e, r, k), term d: the entry (e, d, k). -/
theorem ridx1 (e : Fin 8) (r : Fin 2048) (k : Fin 4096) (d : Fin 1024) :
    ridx_main_v1 (ix3 e r k) d = ix3 e d k :=
  funext fun a => Fin.ext (by match a with | ⟨0, _⟩ => rfl | ⟨1, _⟩ => rfl | ⟨2, _⟩ => rfl)

/-- The first bias is read at (e, 0, k) for the entry (e, r, k). -/
theorem idx2 (e : Fin 8) (r : Fin 2048) (k : Fin 4096) :
    idx_main_v2 (ix3 e r k) = ix3 e (0 : Fin 1) k :=
  funext fun a => Fin.ext (by match a with | ⟨0, _⟩ => rfl | ⟨1, _⟩ => rfl | ⟨2, _⟩ => rfl)

/-- Left operand of the second product at entry (e, r, q), term k: the entry (e, r, k). -/
theorem lidx17 (e : Fin 8) (r : Fin 2048) (q : Fin 1024) (k : Fin 4096) :
    lidx_main_v17 (ix3 e r q) k = ix3 e r k :=
  funext fun a => Fin.ext (by match a with | ⟨0, _⟩ => rfl | ⟨1, _⟩ => rfl | ⟨2, _⟩ => rfl)

/-- Right operand of the second product at entry (e, r, q), term k: the entry (e, k, q). -/
theorem ridx17 (e : Fin 8) (r : Fin 2048) (q : Fin 1024) (k : Fin 4096) :
    ridx_main_v17 (ix3 e r q) k = ix3 e k q :=
  funext fun a => Fin.ext (by match a with | ⟨0, _⟩ => rfl | ⟨1, _⟩ => rfl | ⟨2, _⟩ => rfl)

/-- The second bias is read at (e, 0, q) for the entry (e, r, q). -/
theorem idx18 (e : Fin 8) (r : Fin 2048) (q : Fin 1024) :
    idx_main_v18 (ix3 e r q) = ix3 e (0 : Fin 1) q :=
  funext fun a => Fin.ext (by match a with | ⟨0, _⟩ => rfl | ⟨1, _⟩ => rfl | ⟨2, _⟩ => rfl)

/-! ### The hidden entry and its activation -/

/-- The tanh form of GELU with the cube written (h·h)·h is the specification's, which writes h·(h·h). -/
theorem gelu_cube (h : EReal) :
    h * (Ideal.ofBits .f32 0x3F000000#32 * (Ideal.ofBits .f32 0x3F800000#32
      + Ideal.tanh (Ideal.ofBits .f32 0x3F4C422A#32 * (h + Ideal.ofBits .f32 0x3D372713#32 * (h * h * h)))))
      = Cert.Ffn.gelu h := by
  unfold Cert.Ffn.gelu
  rw [mul_comm (h * h) h]

variable (x0 : (⟨S1x8x2048x1024, .f32⟩ : BufTy).Contents (Elt Ideal))
  (x1 : (⟨S8x1024x4096, .f32⟩ : BufTy).Contents (Elt Ideal))
  (x2 : (⟨S8x1x4096, .f32⟩ : BufTy).Contents (Elt Ideal))
  (x3 : (⟨S8x4096x1024, .f32⟩ : BufTy).Contents (Elt Ideal))
  (x4 : (⟨S8x1x1024, .f32⟩ : BufTy).Contents (Elt Ideal))

/-- The hidden pre-activation (e, r, k) of the reference: the row of x against the column of w1, plus the bias. -/
theorem hid_at (e : Fin 8) (r : Fin 2048) (k : Fin 4096) :
    val_main_v3 (F := Ideal) x0 x1 x2 (ix3 e r k)
      = Cert.Ffn.hid (val_main_v0 (F := Ideal) x0) x1 x2 e r k := by
  rw [val_main_v3_apply, val_main_v1_apply, val_main_v2_apply, idx2 e r k, Ideal.addf_def]
  generalize val_main_v0 (F := Ideal) x0 = X
  unfold Cert.Ffn.hid
  refine congrArg (· + x2 (ix3 e (0 : Fin 1) k)) ?_
  refine Finset.sum_congr rfl fun d _ => ?_
  rw [lidx1 e r k d, ridx1 e r k d]

/-- The activated hidden entry (e, r, k) of the reference is the tanh-GELU of the hidden pre-activation. -/
theorem act_at (e : Fin 8) (r : Fin 2048) (k : Fin 4096) :
    val_main_v16 (F := Ideal) x0 x1 x2 (ix3 e r k)
      = Cert.Ffn.gelu (Cert.Ffn.hid (val_main_v0 (F := Ideal) x0) x1 x2 e r k) := by
  rw [← hid_at x0 x1 x2 e r k, ← gelu_cube]
  rw [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v8_apply, val_main_v7_apply, val_main_v6_apply, val_main_cst_apply,
    val_main_v5_apply, val_main_v4_apply]
  simp only [Ideal.addf_def, Ideal.mulf_def, Ideal.hostUnary_tanh_def, Ideal.ofBits_def]

/-! ### The result -/

/-- The reference's result before its final reshape is the specification's array of the reshaped activations. -/
theorem ref_is_out :
    val_main_v19 (F := Ideal) x0 x1 x2 x3 x4 = Cert.Ffn.out (val_main_v0 (F := Ideal) x0) x1 x2 x3 x4 := by
  funext i
  obtain ⟨e, r, q, rfl⟩ : ∃ (e : Fin 8) (r : Fin 2048) (q : Fin 1024), i = ix3 e r q :=
    ⟨i 0, i 1, i 2, eq_ix3 i⟩
  refine Eq.trans ?_ (Cert.Ffn.out_ix3 (val_main_v0 (F := Ideal) x0) x1 x2 x3 x4 e r q).symm
  rw [val_main_v19_apply, val_main_v17_apply, val_main_v18_apply, idx18 e r q, Ideal.addf_def]
  unfold Cert.Ffn.outAt
  refine congrArg (· + x4 (ix3 e (0 : Fin 1) q)) ?_
  refine Finset.sum_congr rfl fun k _ => ?_
  rw [lidx17 e r q k, ridx17 e r q k, act_at x0 x1 x2 e r k]

end Cert.Ffn.Ref

end
-- ==== Proof.lean ====
/-
  The five claims about an expert feed-forward kernel (per expert: activations times first weights plus a bias, the tanh
  form of GELU, times second weights plus a bias) and its reference.

  The kernel walks a grid of 8 experts x 8 token blocks x 4 quarters of the hidden axis, keeping a running sum of the second
  product between points, and writes a block back at each fourth quarter; the reference forms the two products whole.  On
  the extended reals both results are, entry by entry, the same sums of the same products: a sum over 4096 hidden units is
  the sum of its four quarters, and the cube inside GELU is associated differently on the two sides.  Only commutativity
  and associativity are used, so the precondition (finite inputs) is never opened.

  The frames of the kernel and of its idealization are the generated ones; the reference's frame is its run with the
  result dropped; the idealization rewrote nothing.
-/
import proofs.«181915_j18193481466108_2_alg».proof.Defs
import proofs.«181915_j18193481466108_2_alg».proof.Proof.Gen.Kernel
import proofs.«181915_j18193481466108_2_alg».proof.Proof.Gen.Kernel.Frame
import proofs.«181915_j18193481466108_2_alg».proof.Proof.Gen.KernelIdeal
import proofs.«181915_j18193481466108_2_alg».proof.Proof.Gen.KernelIdeal.Frame
import proofs.«181915_j18193481466108_2_alg».proof.Proof.Gen.ReferenceIdeal
import proofs.«181915_j18193481466108_2_alg».proof.Proof.Gen.ReferenceIdeal.Run
import proofs.«181915_j18193481466108_2_alg».proof.Proof.Gen.ReferenceIdeal.Read
import proofs.«181915_j18193481466108_2_alg».proof.Proof.Gen.Pre_finite_inputs
import proofs.«181915_j18193481466108_2_alg».proof.Proof.FfnRun
import proofs.«181915_j18193481466108_2_alg».proof.Proof.FfnRef
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the feed-forward array of the (agreeing) arguments. -/
theorem algebraic : Cert.algebraic_KernelIdeal_ReferenceIdeal := by
  intro m ρ m' ρ' _ hagree
  refine ⟨fun c => Cert.Ffn.Run.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.Ffn.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v20_eq]
  unfold Cert.ReferenceIdeal.Read.val_main_v20
  rw [Cert.Ffn.Ref.ref_is_out]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
